-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S512x4096 : Shape := ⟨2, ![512, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S4096x4096 .f32) (main_arg1 : FVec F S512x4096 .f32) (main_arg2 : FVec F S512x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  main_v13
-- ==== Kernel.lean ====
abbrev S4096x4096 : Shape := ⟨2, ![4096, 4096]⟩
abbrev S512x4096 : Shape := ⟨2, ![512, 4096]⟩
abbrev S4096x256 : Shape := ⟨2, ![4096, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S512x4096, .f32⟩
  | .hbm, ⟨3, _⟩ => ⟨S4096x4096, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S512x256, .f32⟩
  | .local _ .vmem, ⟨4, _⟩ => ⟨S512x256, .f32⟩
  | .local _ .vmem, ⟨5, _⟩ => ⟨S4096x256, .f32⟩
  | .local _ .vmem, ⟨6, _⟩ => ⟨S4096x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  dot_S512x4096_S512x256_S4096x256_0_0_1_1_n_n_wf : DotDims.WF S512x4096 S512x256 S4096x256 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x4096.size a
  hwx0_2 : ∀ i : grid0.Coords, EltTy.bits .f32 = 32 ∨ (Rect.block (s := S512x4096) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x4096.size a
  hwx0_3 : ∀ i : grid0.Coords, EltTy.bits .f32 = 32 ∨ (Rect.block (s := S4096x4096) S4096x256.size (cc0_transform_3 i) (hinb0_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x4096_S512x256_S4096x256_0_0_1_1_n_n : DotDims S512x4096 S512x256 S4096x256 where
  lhsContracting := [0]
  rhsContracting := [0]
  lhsNonContracting := [1]
  rhsNonContracting := [1]
  lhsBatch := []
  rhsBatch := []
  wf := dot_S512x4096_S512x256_S4096x256_0_0_1_1_n_n_wf

abbrev win0_0 : Pipeline.Window sig grid0 :=
  Pipeline.Window.ofSpec (Memref.whole main_arg1) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S512x4096 : Shape := ⟨2, ![512, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S_, .f32⟩
  | .hbm, ⟨7, _⟩ => ⟨S512x4096, .f32⟩
  | .hbm, ⟨8, _⟩ => ⟨S512x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x4096, .f32⟩
  | .hbm, ⟨17, _⟩ => ⟨S512x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S512x4096 : S_.BroadcastsInDim S512x4096 (![] : Fin 0 → Fin S512x4096.rank)
  reducesTo_S512x4096_S_d0_1 : S512x4096.ReducesTo [0, 1] S_
  h_S_ : 0 < S_.numel
  transposes_S4096x4096_S4096x4096_1_0 : S4096x4096.Transposes [1, 0] S4096x4096
  bcast_S_S4096x4096 : S_.BroadcastsInDim S4096x4096 (![] : Fin 0 → Fin S4096x4096.rank)
  dot_S512x4096_S4096x4096_S512x4096_1_0_0_1_n_n_wf : DotDims.WF S512x4096 S4096x4096 S512x4096 [1] [0] [0] [1] [] []
  dot_S512x4096_S512x4096_S4096x4096_0_0_1_1_n_n_wf : DotDims.WF S512x4096 S512x4096 S4096x4096 [0] [0] [1] [1] [] []

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S512x4096_S512x4096_S4096x4096_0_0_1_1_n_n : DotDims S512x4096 S512x4096 S4096x4096 where
  lhsContracting := [0]
  rhsContracting := [0]
  lhsNonContracting := [1]
  rhsNonContracting := [1]
  lhsBatch := []
  rhsBatch := []
  wf := dot_S512x4096_S512x4096_S4096x4096_0_0_1_1_n_n_wf

class Facts : Prop extends Facts₀ where

variable [Facts]
-- ==== Proof.UpdateLaw.lean ====
/-
  One step of gradient descent on a linear memory, as mathematics only.

  A memory `W` (4096 × 4096) is corrected by a batch of 512 key rows `K` and value rows `V`:
      new W (i, j) = W (i, j) − η · Σ_c K (c, i) · (Σ_k K (c, k) · W (k, j) − V (c, j)),
  the gradient of the mean squared error of `K · W` against `V`, times a learning rate. `newW` states this with the step
  factor η the f32 word 0x33CCCCCD, which denotes 13421773 / 2^47.

  The other spelling of the same update multiplies the residual by 2 and by 1 / 2097152 (the derivative of the mean over
  512 · 4096 squares) inside the sum over the batch and by the learning rate, the f32 word nearest 0.1 = 13421773 / 2^27,
  outside. Both spellings agree on the extended reals with NO finiteness assumption on the entries: the three factors are
  nonnegative finite numbers, such a factor distributes over a finite sum of extended reals, products commute and
  associate, and 13421773 / 2^27 · (1 / 2^21 · 2) = 13421773 / 2^47 (`update_law`).
-/
import Idealize.ShloMosaic.PureOps.Ideal
import Idealize.ShloMosaic.Lib.ValueIdx

noncomputable section

open scoped BigOperators

namespace Cert.MemoryStep

open Idealize.ShloMosaic Idealize.ShloMosaic.ValueIdx

/-! ## The f32 words of the two programs, as the numbers they denote -/

/-- `1.0` denotes 1. -/
theorem word_one : Ideal.ofBits .f32 0x3F800000#32 = ((1 : ℝ) : EReal) := by
  simp [Ideal.ofBits, Ideal.ieee, -EReal.coe_mul]; norm_num

/-- `2.0` denotes 2. -/
theorem word_two : Ideal.ofBits .f32 0x40000000#32 = ((2 : ℝ) : EReal) := by
  simp [Ideal.ofBits, Ideal.ieee, -EReal.coe_mul]; norm_num

/-- The word 0x4A000000 denotes 2097152 = 512 · 4096, the number of squares the loss averages. -/
theorem word_count : Ideal.ofBits .f32 0x4A000000#32 = ((2097152 : ℝ) : EReal) := by
  simp [Ideal.ofBits, Ideal.ieee, -EReal.coe_mul]; norm_num

/-- The f32 word nearest 0.1, the learning rate, denotes 13421773 / 2^27. -/
theorem word_rate : Ideal.ofBits .f32 0x3DCCCCCD#32 = ((13421773 / 134217728 : ℝ) : EReal) := by
  simp [Ideal.ofBits, Ideal.ieee, -EReal.coe_mul]; norm_num

/-- The step factor's word, the same mantissa twenty binades lower, denotes 13421773 / 2^47. -/
theorem word_step : Ideal.ofBits .f32 0x33CCCCCD#32 = ((13421773 / 140737488355328 : ℝ) : EReal) := by
  simp [Ideal.ofBits, Ideal.ieee, -EReal.coe_mul]; norm_num

/-! ## A nonnegative finite factor and a finite sum of extended reals -/

/-- A nonnegative finite factor distributes over a finite sum of extended reals (whatever infinities the sum meets). -/
theorem mul_sum_of_nonneg {ι : Type} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

/-- The two spellings of the scaled gradient sum agree: rate · Σ_c ((1 / count) · (2 · d_c)) · k_c = step · Σ_c k_c · d_c. -/
theorem update_law {ι : Type} (s : Finset ι) (k d : ι → EReal) :
    Ideal.ofBits .f32 0x3DCCCCCD#32 * ∑ c ∈ s,
        (Ideal.div (Ideal.ofBits .f32 0x3F800000#32) (Ideal.ofBits .f32 0x4A000000#32) * (Ideal.ofBits .f32 0x40000000#32 * d c)) * k c
      = Ideal.ofBits .f32 0x33CCCCCD#32 * ∑ c ∈ s, k c * d c := by
  rw [word_rate, word_one, word_count, word_two, word_step, Ideal.div_coe (by norm_num : (2097152 : ℝ) ≠ 0)]
  have hterm : ∀ c, (((1 : ℝ) : EReal) * ((1 / 2097152 : ℝ) : EReal) * (((2 : ℝ) : EReal) * d c)) * k c
      = ((1 * (1 / 2097152) * 2 : ℝ) : EReal) * (k c * d c) := fun c => by
    rw [EReal.coe_mul, EReal.coe_mul]
    ac_rfl
  rw [Finset.sum_congr rfl fun c _ => hterm c,
    ← mul_sum_of_nonneg s _ (by exact_mod_cast (by norm_num : (0 : ℝ) ≤ 1 * (1 / 2097152) * 2)) (EReal.coe_ne_top _),
    ← mul_assoc, ← EReal.coe_mul]
  congr 2
  norm_num

/-! ## The update, index by index -/

/-- The corrected memory at (i, j): W (i, j) − η · Σ_c K (c, i) · (Σ_k K (c, k) · W (k, j) − V (c, j)). -/
def newW (W : FVec Ideal ⟨2, ![4096, 4096]⟩ .f32) (K V : FVec Ideal ⟨2, ![512, 4096]⟩ .f32) :
    FVec Ideal ⟨2, ![4096, 4096]⟩ .f32 := fun i =>
  W i - Ideal.ofBits .f32 0x33CCCCCD#32
    * ∑ c : Fin 512, K (ix2 c (i 0)) * ((∑ k : Fin 4096, K (ix2 c k) * W (ix2 k (i 1))) - V (ix2 c (i 1)))

end Cert.MemoryStep

end
-- ==== Proof.ReferenceStage.lean ====
/-
  The reference program computes `newW`: read index by index, its last stage is
      W (p, q) − rate · Σ_c ((1 / count) · (2 · (Σ_k K (c, k) · W (k, q) − V (c, q)))) · K (c, p),
  the transposed product of the scaled residual with the keys, and the update law turns the three factors into the one
  step factor of `newW`.
-/
import proofs.«158195_j27822798143729_2_alg».proof.Proof.Gen.ReferenceIdeal.Read
import proofs.«158195_j27822798143729_2_alg».proof.Proof.UpdateLaw

noncomputable section

open scoped BigOperators

namespace Cert.MemoryStep.Reference

open Cert.ReferenceIdeal Cert.ReferenceIdeal.Read Idealize.ShloMosaic Idealize.ShloMosaic.ValueIdx

/-- The reference's result stage is the corrected memory `newW` of its three arguments. -/
theorem stage_eq_newW (W : FVec Ideal S4096x4096 .f32) (K V : FVec Ideal S512x4096 .f32) :
    val_main_v14 (F := Ideal) W K V = newW W K V := by
  funext i
  obtain ⟨p, q, rfl⟩ : ∃ (p q : Fin 4096), i = ix2 p q := ⟨i 0, i 1, eq_ix2 i⟩
  -- the transposed product reads row c of the scaled residual at column q and row c of the keys at column p
  have e1 : ∀ c : Fin 512, lidx_main_v10 (idx_main_v11 (ix2 p q)) c = ix2 c q := fun c =>
    funext fun a => by match a with | ⟨0, _⟩ => rfl | ⟨1, _⟩ => rfl
  have e2 : ∀ c : Fin 512, ridx_main_v10 (idx_main_v11 (ix2 p q)) c = ix2 c p := fun c =>
    funext fun a => by match a with | ⟨0, _⟩ => rfl | ⟨1, _⟩ => rfl
  -- the prediction at (c, q) contracts row c of the keys with column q of the memory
  have e3 : ∀ (c : Fin 512) (k : Fin 4096), lidx_main_v0 (ix2 c q) k = ix2 c k := fun c k =>
    funext fun a => by match a with | ⟨0, _⟩ => rfl | ⟨1, _⟩ => rfl
  have e4 : ∀ (c : Fin 512) (k : Fin 4096), ridx_main_v0 (ix2 c q) k = ix2 k q := fun c k =>
    funext fun a => by match a with | ⟨0, _⟩ => rfl | ⟨1, _⟩ => rfl
  rw [val_main_v14_apply, val_main_v13_apply, val_main_v12_apply, val_main_cst_4_apply, val_main_v11_apply,
    val_main_v10_apply]
  simp only [e1, e2, val_main_v9_apply, val_main_v8_apply, val_main_v7_apply, val_main_cst_2_apply, val_main_cst_3_apply,
    val_main_v4_apply, val_main_v3_apply, val_main_cst_apply, val_main_v1_apply, val_main_v0_apply, e3, e4,
    Ideal.subf_def, Ideal.mulf_def, Ideal.hostDivf_def, Ideal.ofBits_def]
  refine congrArg (W (ix2 p q) - ·) ?_
  exact update_law Finset.univ (fun c => K (ix2 c p))
    (fun c => (∑ k : Fin 4096, K (ix2 c k) * W (ix2 k q)) - V (ix2 c q))

end Cert.MemoryStep.Reference

end
-- ==== Proof.KernelBody.lean ====
/-
  The kernel body's arithmetic at one entry of a column stripe. The body holds the whole key matrix, one stripe of 256
  columns of the memory and the matching stripe of the values. It forms the residual stripe keys · stripe − values, then
  keysᵀ · residual, and stores stripe − η · (keysᵀ · residual). On the extended reals the roundings to bf16 are the
  identity and each matrix product into a zero accumulator is the plain sum over its one contracted axis, so entry (p, q)
  of the stored block is
      stripe (p, q) − η · Σ_c keys (c, p) · (Σ_k keys (c, k) · stripe (k, q) − values (c, q)).
-/
import proofs.«158195_j27822798143729_2_alg».proof.Proof.Gen.KernelIdeal.Skeleton
import proofs.«158195_j27822798143729_2_alg».proof.Proof.UpdateLaw
import Idealize.ShloMosaic.PureOps.Ideal.Laws
import Idealize.ShloMosaic.Lib.ValueIdx

noncomputable section

open scoped BigOperators

namespace Cert.MemoryStep.Body

open Cert.KernelIdeal Cert.KernelIdeal.Gen Idealize.ShloMosaic Idealize.ShloMosaic.ValueIdx

/-! ## The operand coordinates of the two products

The first product contracts axis 1 of the keys with axis 0 of the stripe; the second contracts axis 0 of both operands
(the batch of 512 rows). In each, the free axis of the left operand follows the output's row and the free axis of the
right operand the output's column. -/

theorem predict_lhs_free (j : S512x256.Idx) (k : dot_S512x4096_S4096x256_S512x256_1_0_0_1_n_n.contr.Idx) :
    (dot_S512x4096_S4096x256_S512x256_1_0_0_1_n_n.lhsIdx j k 0).val = (j 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
theorem predict_lhs_bound (j : S512x256.Idx) (k : dot_S512x4096_S4096x256_S512x256_1_0_0_1_n_n.contr.Idx) :
    (dot_S512x4096_S4096x256_S512x256_1_0_0_1_n_n.lhsIdx j k 1).val = (k ⟨0, by decide⟩).val :=
  dot_S512x4096_S4096x256_S512x256_1_0_0_1_n_n.lhsIdx_val_of_single rfl j k
theorem predict_rhs_bound (j : S512x256.Idx) (k : dot_S512x4096_S4096x256_S512x256_1_0_0_1_n_n.contr.Idx) :
    (dot_S512x4096_S4096x256_S512x256_1_0_0_1_n_n.rhsIdx j k 0).val = (k ⟨0, by decide⟩).val :=
  dot_S512x4096_S4096x256_S512x256_1_0_0_1_n_n.rhsIdx_val_of_single rfl j k
theorem predict_rhs_free (j : S512x256.Idx) (k : dot_S512x4096_S4096x256_S512x256_1_0_0_1_n_n.contr.Idx) :
    (dot_S512x4096_S4096x256_S512x256_1_0_0_1_n_n.rhsIdx j k 1).val = (j 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

theorem gradient_lhs_free (j : S4096x256.Idx) (k : dot_S512x4096_S512x256_S4096x256_0_0_1_1_n_n.contr.Idx) :
    (dot_S512x4096_S512x256_S4096x256_0_0_1_1_n_n.lhsIdx j k 1).val = (j 0).val := by
  unfold DotDims.lhsIdx
  rw [dif_neg (show ¬(1 : Fin S512x4096.rank) ∈ dot_S512x4096_S512x256_S4096x256_0_0_1_1_n_n.lhsBatch by decide),
    dif_pos (show (1 : Fin S512x4096.rank) ∈ dot_S512x4096_S512x256_S4096x256_0_0_1_1_n_n.lhsNonContracting by decide)]
  rfl
theorem gradient_lhs_bound (j : S4096x256.Idx) (k : dot_S512x4096_S512x256_S4096x256_0_0_1_1_n_n.contr.Idx) :
    (dot_S512x4096_S512x256_S4096x256_0_0_1_1_n_n.lhsIdx j k 0).val = (k ⟨0, by decide⟩).val :=
  dot_S512x4096_S512x256_S4096x256_0_0_1_1_n_n.lhsIdx_val_of_single rfl j k
theorem gradient_rhs_bound (j : S4096x256.Idx) (k : dot_S512x4096_S512x256_S4096x256_0_0_1_1_n_n.contr.Idx) :
    (dot_S512x4096_S512x256_S4096x256_0_0_1_1_n_n.rhsIdx j k 0).val = (k ⟨0, by decide⟩).val :=
  dot_S512x4096_S512x256_S4096x256_0_0_1_1_n_n.rhsIdx_val_of_single rfl j k
theorem gradient_rhs_free (j : S4096x256.Idx) (k : dot_S512x4096_S512x256_S4096x256_0_0_1_1_n_n.contr.Idx) :
    (dot_S512x4096_S512x256_S4096x256_0_0_1_1_n_n.rhsIdx j k 1).val = (j 1).val := by
  unfold DotDims.rhsIdx
  rw [dif_neg (show ¬(1 : Fin S512x256.rank) ∈ dot_S512x4096_S512x256_S4096x256_0_0_1_1_n_n.rhsBatch by decide),
    dif_pos (show (1 : Fin S512x256.rank) ∈ dot_S512x4096_S512x256_S4096x256_0_0_1_1_n_n.rhsNonContracting by decide)]
  rfl

/-! ## The two products at an entry -/

/-- The first product, keys [512, 4096] times a stripe [4096, 256] into zero, at (c, q): the sum over the 4096 shared
    positions of row c of the keys against column q of the stripe. -/
theorem predict_apply (a : FVec Ideal S512x4096 .bf16) (b : FVec Ideal S4096x256 .bf16) (c : Fin 512) (q : Fin 256) :
    matmul dot_S512x4096_S4096x256_S512x256_1_0_0_1_n_n none a b (constant S512x256 .f32 0x00000000#32) (ix2 c q)
      = ∑ k : Fin 4096, a (ix2 c k) * b (ix2 k q) := by
  refine (Ideal.matmul_constant_zero_apply dot_S512x4096_S4096x256_S512x256_1_0_0_1_n_n none a b (ix2 c q)).trans ?_
  rw [← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 c q) ((contrEquiv1 dot_S512x4096_S4096x256_S512x256_1_0_0_1_n_n 4096 rfl rfl).symm k) = ix2 c k :=
    funext fun x => Fin.ext (by
      match x with
      | ⟨0, _⟩ => exact predict_lhs_free _ _
      | ⟨1, _⟩ => exact (predict_lhs_bound _ _).trans hk)
  have er : dot_S512x4096_S4096x256_S512x256_1_0_0_1_n_n.rhsIdx (ix2 c q) ((contrEquiv1 dot_S512x4096_S4096x256_S512x256_1_0_0_1_n_n 4096 rfl rfl).symm k) = ix2 k q :=
    funext fun x => Fin.ext (by
      match x with
      | ⟨0, _⟩ => exact (predict_rhs_bound _ _).trans hk
      | ⟨1, _⟩ => exact predict_rhs_free _ _)
  rw [el, er]

/-- The second product contracts the batch axis of both operands, keysᵀ [4096, 512] times a residual [512, 256] into
    zero, at (p, q): the sum over the 512 rows of column p of the keys against column q of the residual. -/
theorem gradient_apply (a : FVec Ideal S512x4096 .bf16) (d : FVec Ideal S512x256 .bf16) (p : Fin 4096) (q : Fin 256) :
    matmul dot_S512x4096_S512x256_S4096x256_0_0_1_1_n_n none a d (constant S4096x256 .f32 0x00000000#32) (ix2 p q)
      = ∑ c : Fin 512, a (ix2 c p) * d (ix2 c q) := by
  refine (Ideal.matmul_constant_zero_apply dot_S512x4096_S512x256_S4096x256_0_0_1_1_n_n none a d (ix2 p q)).trans ?_
  rw [← Equiv.sum_comp (contrEquiv1 dot_S512x4096_S512x256_S4096x256_0_0_1_1_n_n 512 rfl rfl).symm]
  refine Finset.sum_congr rfl fun k _ => ?_
  have hk := contrEquiv1_symm_val dot_S512x4096_S512x256_S4096x256_0_0_1_1_n_n 512 rfl rfl k
  have el : dot_S512x4096_S512x256_S4096x256_0_0_1_1_n_n.lhsIdx (ix2 p q) ((contrEquiv1 dot_S512x4096_S512x256_S4096x256_0_0_1_1_n_n 512 rfl rfl).symm k) = ix2 k p :=
    funext fun x => Fin.ext (by
      match x with
      | ⟨0, _⟩ => exact (gradient_lhs_bound _ _).trans hk
      | ⟨1, _⟩ => exact gradient_lhs_free _ _)
  have er : dot_S512x4096_S512x256_S4096x256_0_0_1_1_n_n.rhsIdx (ix2 p q) ((contrEquiv1 dot_S512x4096_S512x256_S4096x256_0_0_1_1_n_n 512 rfl rfl).symm k) = ix2 k q :=
    funext fun x => Fin.ext (by
      match x with
      | ⟨0, _⟩ => exact (gradient_rhs_bound _ _).trans hk
      | ⟨1, _⟩ => exact gradient_rhs_free _ _)
  rw [el, er]

/-! ## The stored block -/

/-- The stored block at (p, q), from the body's four loads: the keys, the stripe (loaded twice) and the values. -/
theorem stored_apply (keys : Vec Ideal S512x4096 .f32) (stripe : Vec Ideal S4096x256 .f32) (vals : Vec Ideal S512x256 .f32)
    (stripe' : Vec Ideal S4096x256 .f32) (p : Fin 4096) (q : Fin 256) :
    k0_pay1 (F := Ideal) keys stripe vals stripe' (ix2 p q)
      = stripe' (ix2 p q) - Ideal.ofBits .f32 0x33CCCCCD#32
          * ∑ c : Fin 512, keys (ix2 c p) * ((∑ k : Fin 4096, keys (ix2 c k) * stripe (ix2 k q)) - vals (ix2 c q)) := by
  unfold k0_pay1
  refine congrArg (stripe' (ix2 p q) - Ideal.ofBits .f32 0x33CCCCCD#32 * ·) ?_
  refine (gradient_apply _ _ p q).trans ?_
  refine Finset.sum_congr rfl fun c _ => ?_
  exact congrArg (fun z => keys (ix2 c p) * (z - vals (ix2 c q)))
    (predict_apply (truncf .bf16 keys bitsLt_bf16_f32) (truncf .bf16 stripe bitsLt_bf16_f32) c q)

/-- When the loaded blocks are the whole keys, and column q of the loaded stripes is column s of the memory and of the
    values, the stored entry (p, q) is entry (p, s) of the corrected memory. -/
theorem stored_eq_newW (W : FVec Ideal S4096x4096 .f32) (K V : FVec Ideal S512x4096 .f32)
    (keys : Vec Ideal S512x4096 .f32) (stripe : Vec Ideal S4096x256 .f32) (vals : Vec Ideal S512x256 .f32)
    (p : Fin 4096) (q : Fin 256) (s : Fin 4096)
    (hk : ∀ y : S512x4096.Idx, keys y = K y)
    (hs : ∀ a : Fin 4096, stripe (ix2 a q) = W (ix2 a s))
    (hv : ∀ a : Fin 512, vals (ix2 a q) = V (ix2 a s)) :
    k0_pay1 (F := Ideal) keys stripe vals stripe (ix2 p q) = newW W K V (ix2 p s) := by
  refine (stored_apply keys stripe vals stripe p q).trans ?_
  unfold newW
  simp only [hk, hs, hv]

end Cert.MemoryStep.Body

end
-- ==== Proof.StripeCover.lean ====
/-
  From column stripes to the whole memory. The grid has 16 points; point t works on columns 256 t … 256 t + 255. Its
  three input blocks are the whole key matrix and stripe t of the memory and of the values, and the block it writes back
  is stripe t of the result. Entry (p, q) of that block is therefore entry (p, 256 t + q) of the corrected memory `newW`
  of the three argument arrays, the sixteen stripes tile the 4096 columns, and the result array ends holding `newW`.
-/
import proofs.«158195_j27822798143729_2_alg».proof.Proof.Gen.KernelIdeal.Value
import proofs.«158195_j27822798143729_2_alg».proof.Proof.KernelBody
import Idealize.ShloMosaic.Lib.Pipeline.Value

noncomputable section

open scoped BigOperators

namespace Cert.MemoryStep.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Column q of stripe t is column 256 t + q of the memory. -/
def col (t : Fin cfg0.N) (q : Fin 256) : Fin 4096 :=
  ⟨256 * t.val + q.val, by have hN : cfg0.N = 16 := N_0; have := t.isLt; have := q.isLt; omega⟩

/-- The printed index maps over the grid: the keys' block never moves, the other three windows sit at block row 0 and
    block column t. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-! ## The input blocks at a point, read off the argument arrays -/

/-- The keys' block is the whole key matrix. -/
theorem keys_read (c : Dev nD) (t : Fin cfg0.N) (y : S512x4096.Idx) :
    (iblk m c 0 t : Vec Ideal S512x4096 .f32) y = (V m c main_arg1 : S512x4096.Idx → EReal) y := by
  obtain ⟨e0, e1, -⟩ := idx_facts t
  unfold iblk
  rw [View.read_apply]
  show V m c main_arg1 _ = V m c main_arg1 _
  refine congrArg (V m c main_arg1) ?_
  funext x
  apply Fin.ext
  match x with
  | ⟨0, _⟩ => show win0_0.index t 0 * 512 + 1 * (y 0).val = (y 0).val; rw [e0]; omega
  | ⟨1, _⟩ => show win0_0.index t 1 * 4096 + 1 * (y 1).val = (y 1).val; rw [e1]; omega

/-- Column b of the memory's block at point t is column 256 t + b of the memory. -/
theorem stripe_read (c : Dev nD) (t : Fin cfg0.N) (a : Fin 4096) (b : Fin 256) :
    (iblk m c 1 t : Vec Ideal S4096x256 .f32) (ix2 a b) = (V m c main_arg0 : S4096x4096.Idx → EReal) (ix2 a (col t b)) := by
  obtain ⟨-, -, e0, e1, -⟩ := idx_facts t
  unfold iblk
  rw [View.read_apply]
  show V m c main_arg0 _ = V m c main_arg0 _
  refine congrArg (V m c main_arg0) ?_
  funext x
  apply Fin.ext
  match x with
  | ⟨0, _⟩ => show win0_1.index t 0 * 4096 + 1 * a.val = a.val; rw [e0]; omega
  | ⟨1, _⟩ => show win0_1.index t 1 * 256 + 1 * b.val = 256 * t.val + b.val; rw [e1]; omega

/-- Column b of the values' block at point t is column 256 t + b of the values. -/
theorem vals_read (c : Dev nD) (t : Fin cfg0.N) (a : Fin 512) (b : Fin 256) :
    (iblk m c 2 t : Vec Ideal S512x256 .f32) (ix2 a b) = (V m c main_arg2 : S512x4096.Idx → EReal) (ix2 a (col t b)) := by
  obtain ⟨-, -, -, -, e0, e1, -⟩ := idx_facts t
  unfold iblk
  rw [View.read_apply]
  show V m c main_arg2 _ = V m c main_arg2 _
  refine congrArg (V m c main_arg2) ?_
  funext x
  apply Fin.ext
  match x with
  | ⟨0, _⟩ => show win0_2.index t 0 * 512 + 1 * a.val = a.val; rw [e0]; omega
  | ⟨1, _⟩ => show win0_2.index t 1 * 256 + 1 * b.val = 256 * t.val + b.val; rw [e1]; omega

/-- Entry (p, q) of the output's block at point t is entry (p, 256 t + q) of the result array. -/
theorem out_emb (t : Fin cfg0.N) (p : Fin 4096) (q : Fin 256) :
    ((cfg0.win 3).blk t).view.emb (ix2 p q) = (ix2 p (col t q) : S4096x4096.Idx) := by
  obtain ⟨-, -, -, -, -, -, e0, e1⟩ := idx_facts t
  funext x
  apply Fin.ext
  match x with
  | ⟨0, _⟩ => show win0_3.index t 0 * 4096 + 1 * p.val = p.val; rw [e0]; omega
  | ⟨1, _⟩ => show win0_3.index t 1 * 256 + 1 * q.val = 256 * t.val + q.val; rw [e1]; omega

/-! ## What a point writes back, the cover, the array -/

/-- Point t writes back stripe t of the corrected memory of the argument arrays. -/
theorem flushed_eq (c : Dev nD) (t : Fin cfg0.N) :
    (dats m 0 c).flushed 3 t = ((cfg0.win 3).blk t).view.read (Elt Ideal)
      (newW (V m c main_arg0) (V m c main_arg1) (V m c main_arg2)) := by
  rw [flushed3]
  unfold out0_3
  rw [View.canon_unit_zero hz]
  simp only [View.ld_unit_zero (S := S512x4096) hz, View.ld_unit_zero (S := S4096x256) hz,
    View.ld_unit_zero (S := S512x256) hz]
  funext j
  obtain ⟨p, q, rfl⟩ : ∃ (p : Fin 4096) (q : Fin 256), j = ix2 p q := ⟨j 0, j 1, eq_ix2 j⟩
  show k0_pay1 (iblk m c 0 t) (iblk m c 1 t) (iblk m c 2 t) (iblk m c 1 t) (ix2 p q)
    = newW (V m c main_arg0) (V m c main_arg1) (V m c main_arg2) (((cfg0.win 3).blk t).view.emb (ix2 p q))
  rw [out_emb t p q]
  exact Body.stored_eq_newW (V m c main_arg0) (V m c main_arg1) (V m c main_arg2)
    (iblk m c 0 t) (iblk m c 1 t) (iblk m c 2 t) p q (col t q)
    (keys_read m c t) (fun a => stripe_read m c t a q) (fun a => vals_read m c t a q)

/-- An index of the result array is in point t's block iff each coordinate is in the block's range on its axis. -/
theorem mem_blk (t : Fin cfg0.N) (i : S4096x4096.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v0).slice (win0_3.rect t)).set ↔ _
  rw [View.set_slice_whole, Rect.mem_set_unit]
  exact Iff.rfl

/-- The stripes tile the array: column j lies in the block of point j / 256. -/
theorem cover (i : S4096x4096.Idx) :
    ∃ t : Fin cfg0.N, (cfg0.win 3).flush t = true ∧ i ∈ ((cfg0.win 3).blk t).view.set := by
  have hN : cfg0.N = 16 := N_0
  have hi0 : (i 0).val < 4096 := (i 0).isLt
  have hi1 : (i 1).val < 4096 := (i 1).isLt
  obtain ⟨t, ht⟩ : ∃ t : Fin cfg0.N, t.val = (i 1).val / 256 := ⟨⟨(i 1).val / 256, by omega⟩, rfl⟩
  obtain ⟨-, -, -, -, -, -, e0, e1⟩ := idx_facts t
  refine ⟨t, flush0_3 t, ?_⟩
  rw [mem_blk]
  intro a
  match a with
  | ⟨0, _⟩ =>
    show win0_3.index t 0 * 4096 ≤ (i 0).val ∧ (i 0).val < win0_3.index t 0 * 4096 + 4096
    rw [e0]; omega
  | ⟨1, _⟩ =>
    show win0_3.index t 1 * 256 ≤ (i 1).val ∧ (i 1).val < win0_3.index t 1 * 256 + 256
    rw [e1, ht]; omega

/-- The result array after the run is the corrected memory of the argument arrays. -/
theorem final (c : Dev nD) : (dats m 0 c).arrAt 3 cfg0.N
    = newW (m ((c : Thread nD τ).loc main_arg0)) (m ((c : Thread nD τ).loc main_arg1)) (m ((c : Thread nD τ).loc main_arg2)) :=
  (dats m 0 c).arrAt_eq_of_cover 3 (newW (V m c main_arg0) (V m c main_arg1) (V m c main_arg2))
    (fun t _ => flushed_eq m c t) cover

/-- The kernel's run, read: the result array at `newW` of the arguments, the arguments unchanged. -/
theorem run : θ_run defs (onTc (τ := τ) (main (F := Ideal))) ⟨m, fun _ => 0, ρ⟩ fun r => ∀ c : Dev nD,
      r.2.mem ((c : Thread nD τ).loc main_v0)
        = newW (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.MemoryStep.Kernel

end
-- ==== Proof.lean ====
/-
  One step of gradient descent on a linear memory: the fused kernel against the reference that differentiates the mean
  squared error.

  Both programs correct a memory W (4096 × 4096) from 512 key rows K and value rows V. The kernel walks sixteen column
  stripes; on each it forms the residual K · W − V, then Kᵀ · residual, and writes W − η · (Kᵀ · residual) with the single
  factor η (the f32 word 0x33CCCCCD). The reference scales the residual by 2 and by 1 / (512 · 4096) before the transposed
  product and multiplies by the learning rate (the f32 word nearest 0.1) after it. On the extended reals each spelling is
      W (i, j) − η · Σ_c K (c, i) · (Σ_k K (c, k) · W (k, j) − V (c, j)),
  because the learning rate times 2 / 2097152 is exactly η (one mantissa, twenty binades apart) and a nonnegative finite
  factor moves through a finite sum of extended reals whatever infinities the sum meets; no finiteness of the entries is
  used. The kernel's idealization rewrote nothing, so the statement that it is the kernel's sanctioned idealization is
  trivially true.

  Modules: `UpdateLaw` (the update as mathematics, the constants, the law joining the two spellings), `ReferenceStage`
  (the reference's last stage is the update), `KernelBody` (the stored block at an entry), `StripeCover` (the stripes
  tile the array; the kernel's run ends at the update). The generated modules imported are the three programs' facts and
  frames, the idealized kernel's blockwise value leg and the reference's run and its read-at-an-index lemmas.
-/
import proofs.«158195_j27822798143729_2_alg».proof.Defs
import proofs.«158195_j27822798143729_2_alg».proof.Proof.Gen.Kernel
import proofs.«158195_j27822798143729_2_alg».proof.Proof.Gen.Kernel.Skeleton
import proofs.«158195_j27822798143729_2_alg».proof.Proof.Gen.Kernel.Launch
import proofs.«158195_j27822798143729_2_alg».proof.Proof.Gen.Kernel.Points
import proofs.«158195_j27822798143729_2_alg».proof.Proof.Gen.Kernel.Frame
import proofs.«158195_j27822798143729_2_alg».proof.Proof.Gen.KernelIdeal
import proofs.«158195_j27822798143729_2_alg».proof.Proof.Gen.KernelIdeal.Skeleton
import proofs.«158195_j27822798143729_2_alg».proof.Proof.Gen.KernelIdeal.Launch
import proofs.«158195_j27822798143729_2_alg».proof.Proof.Gen.KernelIdeal.Points
import proofs.«158195_j27822798143729_2_alg».proof.Proof.Gen.KernelIdeal.Frame
import proofs.«158195_j27822798143729_2_alg».proof.Proof.Gen.ReferenceIdeal
import proofs.«158195_j27822798143729_2_alg».proof.Proof.Gen.Pre_finite_inputs
import proofs.«158195_j27822798143729_2_alg».proof.Proof.Gen.KernelIdeal.Value
import proofs.«158195_j27822798143729_2_alg».proof.Proof.Gen.ReferenceIdeal.Run
import proofs.«158195_j27822798143729_2_alg».proof.Proof.Gen.ReferenceIdeal.Read
import proofs.«158195_j27822798143729_2_alg».proof.Proof.UpdateLaw
import proofs.«158195_j27822798143729_2_alg».proof.Proof.ReferenceStage
import proofs.«158195_j27822798143729_2_alg».proof.Proof.KernelBody
import proofs.«158195_j27822798143729_2_alg».proof.Proof.StripeCover
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on W, K and V, both programs end with the result array at the corrected memory
    `newW W K V`: the kernel stripe by stripe, the reference through its scaled transposed product. -/
theorem algebraic : Cert.algebraic_KernelIdeal_ReferenceIdeal := by
  intro m ρ m' ρ' _ hagree
  refine ⟨fun c => Cert.MemoryStep.newW
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.MemoryStep.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.MemoryStep.Reference.stage_eq_newW,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
